-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S400x10000 : Shape := ⟨2, ![400, 10000]⟩
abbrev S400x128 : Shape := ⟨2, ![400, 128]⟩
abbrev S10000x64 : Shape := ⟨2, ![10000, 64]⟩
abbrev S400x64 : Shape := ⟨2, ![400, 64]⟩

abbrev nBuf : Space → Nat
  | .hbm => 13
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x128, .f32⟩
  | .hbm, ⟨9, _⟩ => ⟨S1x128, .f32⟩
  | .hbm, ⟨10, _⟩ => ⟨S1x64, .f32⟩
  | .hbm, ⟨11, _⟩ => ⟨S10000x128, .f32⟩
  | .hbm, ⟨12, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S400x64, .f32⟩
  | .local _ .vmem, ⟨15, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x64.size a ≤ S10000x64.size a
  hwx1_5 : ∀ i : grid1.Coords, EltTy.bits .f32 = 32 ∨ (Rect.block (s := S10000x64) S400x64.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S400x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .i1⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .i1⟩
  | .hbm, ⟨36, _⟩ => ⟨S_, .f32⟩
  | .hbm, ⟨37, _⟩ => ⟨S10000x128, .f32⟩
  | .hbm, ⟨38, _⟩ => ⟨S10000x128, .i1⟩
  | .hbm, ⟨39, _⟩ => ⟨S_, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x64, .f32⟩
  | .hbm, ⟨49, _⟩ => ⟨S1x64, .f32⟩
  | .hbm, ⟨50, _⟩ => ⟨S10000x64, .f32⟩
  | .hbm, ⟨51, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_v4 : Ref sig .tc := ⟨.hbm, 22, rfl⟩
abbrev main_call0_v5 : Ref sig .tc := ⟨.hbm, 23, rfl⟩
abbrev main_call0_cst_2 : Ref sig .tc := ⟨.hbm, 24, rfl⟩
abbrev main_call0_v6 : Ref sig .tc := ⟨.hbm, 25, rfl⟩
abbrev main_call0_v7 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.KernelRun.lean ====
/-
  The idealized kernel's run with its result named.

  @main is a stretch of host operations (three reshapes of the bias vectors) followed by two pipelined regions. The
  program's frame certificate folds the buffer contents through these three segments: `W1` after the host stretch,
  `W2` after the first region (its arrays at what the pipeline's write-backs leave, every other buffer as it was),
  `W3` after the second. Every weakly fair execution ends with each unscoped buffer at `W3`; read at the result buffer
  this names the result, and read at the argument buffers it gives the arguments back unchanged.
-/
import proofs.«169209_g49306224558476_cont_8to1_c_716_6_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W3` and the eight argument buffers as launched. -/
theorem run_value : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.RunValue

end
-- ==== Proof.Spec.lean ====
/-
  The two-layer graph network as mathematics on the extended reals, with no program in sight.

  For an adjacency matrix `A`, features `X`, weights `W1`, `W2`, `Wo` and biases `b1`, `b2`, `bo` the network is
    H1 = elu (A · X · W1 + b1),   H2 = elu (A · (H1 · W2) + b2),   logits = H2 · Wo + bo,
  where `elu x = x` for `x > 0` and `exp x - 1` otherwise. Everything after the first pre-activation
  `A · X · W1 + b1` is one function of it (`tail`); the first pre-activation itself can be associated as
  `(A · X) · W1` or as `A · (X · W1)`, and the two agree when the three matrices have real entries
  (`mm_assoc_of_real`): on the extended reals a product does not distribute over a sum that meets an infinity, so
  the law is proved in the reals and carried over by the coercion.

  Also here: the two spellings of `elu` that programs use — `select (x > 0) x (exp x - 1)` and
  `select (x > 0) x (1 * expm1 (select (x > 0) 0 x))` — are this `elu`, at every extended real.
-/
import Idealize.ShloMosaic.PureOps.Ideal
import Idealize.ShloMosaic.PureOps.Ideal.Laws
import Idealize.ShloMosaic.Lib.ValueIdx

noncomputable section

namespace Cert.Gcn

open Idealize.ShloMosaic
open scoped BigOperators

/-- The exponential linear unit on the extended reals. -/
def elu (x : EReal) : EReal := if 0 < x then x else Ideal.exp x - 1

/-- The row-by-column product of two matrices of extended reals. -/
def mm {m k n : ℕ} (A : Fin m → Fin k → EReal) (B : Fin k → Fin n → EReal) (a : Fin m) (b : Fin n) : EReal :=
  ∑ c : Fin k, A a c * B c b

/-- The first pre-activation, the features aggregated first: `(A · X) · W1 + b1`. -/
def preK {N D H : ℕ} (A : Fin N → Fin N → EReal) (X : Fin N → Fin D → EReal) (W1 : Fin D → Fin H → EReal)
    (b1 : Fin H → EReal) (r : Fin N) (k : Fin H) : EReal :=
  mm (mm A X) W1 r k + b1 k

/-- The first pre-activation, the features projected first: `A · (X · W1) + b1`. -/
def preR {N D H : ℕ} (A : Fin N → Fin N → EReal) (X : Fin N → Fin D → EReal) (W1 : Fin D → Fin H → EReal)
    (b1 : Fin H → EReal) (r : Fin N) (k : Fin H) : EReal :=
  mm A (mm X W1) r k + b1 k

/-- The hidden layer's projected activations `elu P · W2`, from the first pre-activation `P`. -/
def hidden {N H : ℕ} (W2 : Fin H → Fin H → EReal) (P : Fin N → Fin H → EReal) (r : Fin N) (k : Fin H) : EReal :=
  mm (fun r j => elu (P r j)) W2 r k

/-- The output layer from the hidden layer's projected activations `Y`: `elu (A · Y + b2) · Wo + bo`. -/
def outLayer {N H O : ℕ} (A : Fin N → Fin N → EReal) (b2 : Fin H → EReal) (Wo : Fin H → Fin O → EReal)
    (bo : Fin O → EReal) (Y : Fin N → Fin H → EReal) (r : Fin N) (q : Fin O) : EReal :=
  mm (fun r k => elu (mm A Y r k + b2 k)) Wo r q + bo q

/-- Everything after the first pre-activation `P`. -/
def tail {N H O : ℕ} (A : Fin N → Fin N → EReal) (W2 : Fin H → Fin H → EReal) (b2 : Fin H → EReal)
    (Wo : Fin H → Fin O → EReal) (bo : Fin O → EReal) (P : Fin N → Fin H → EReal) (r : Fin N) (q : Fin O) : EReal :=
  outLayer A b2 Wo bo (hidden W2 P) r q

/-! ## The comparison and the two spellings of `elu` -/

theorem select_gt_zero {α : Type} (x : EReal) (a b : α) :
    Scalar.select (Ideal.cmp .ogt x 0) a b = if 0 < x then a else b := by
  unfold Scalar.select Ideal.cmp
  by_cases h : (0 : EReal) < x <;> simp [h]

theorem ofBits_one_f32 : Ideal.ofBits .f32 0x3F800000#32 = 1 := by
  simp [Ideal.ofBits, Ideal.ieee]
  rw [← EReal.coe_mul, ← EReal.coe_one]
  congr 1
  norm_num

/-- `select (x > 0) x (exp x - 1)`, the literals `0` and `1` as f32 patterns. -/
theorem elu_kernel_form (x : EReal) :
    Scalar.select (Ideal.cmp .ogt x (Ideal.ofBits .f32 0x00000000#32)) x
      (Ideal.exp x - Ideal.ofBits .f32 0x3F800000#32) = elu x := by
  rw [Ideal.ofBits_zero_f32, ofBits_one_f32, select_gt_zero]; rfl

/-- `select (x > 0) x (1 * expm1 (select (x > 0) 0 x))`: where the outer select takes its second branch the inner
    one returns `x`, and `1 * y = y`. -/
theorem elu_reference_form (x : EReal) :
    Scalar.select (Ideal.cmp .ogt x (Ideal.ofBits .f32 0x00000000#32)) x
      (Ideal.ofBits .f32 0x3F800000#32
        * (Ideal.exp (Scalar.select (Ideal.cmp .ogt x (Ideal.ofBits .f32 0x00000000#32))
            (Ideal.ofBits .f32 0x00000000#32) x) - 1)) = elu x := by
  rw [Ideal.ofBits_zero_f32, ofBits_one_f32, select_gt_zero, select_gt_zero, one_mul]
  unfold elu
  by_cases h : (0 : EReal) < x
  · rw [if_pos h, if_pos h]
  · rw [if_neg h, if_neg h, if_neg h]

/-! ## Associativity of the product for real matrices -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of matrices with real entries is the coercion of the real product. -/
theorem mm_coe {m k n : ℕ} (A : Fin m → Fin k → ℝ) (B : Fin k → Fin n → ℝ) (a : Fin m) (b : Fin n) :
    mm (fun a c => (A a c : EReal)) (fun c b => (B c b : EReal)) a b = ((∑ c : Fin k, A a c * B c b : ℝ) : EReal) := by
  unfold mm
  rw [coe_sum]
  exact Finset.sum_congr rfl fun c _ => (EReal.coe_mul _ _).symm

/-- `(A · X) · W = A · (X · W)` for matrices whose entries are real numbers. -/
theorem mm_assoc_of_real {N M D H : ℕ} (A : Fin N → Fin M → EReal) (X : Fin M → Fin D → EReal) (W : Fin D → Fin H → EReal)
    (hA : ∀ a c, ∃ x : ℝ, A a c = x) (hX : ∀ a c, ∃ x : ℝ, X a c = x) (hW : ∀ a c, ∃ x : ℝ, W a c = x) :
    mm (mm A X) W = mm A (mm X W) := by
  choose A' hA' using hA
  choose X' hX' using hX
  choose W' hW' using hW
  obtain rfl : A = fun a c => (A' a c : EReal) := funext fun a => funext fun c => hA' a c
  obtain rfl : X = fun a c => (X' a c : EReal) := funext fun a => funext fun c => hX' a c
  obtain rfl : W = fun a c => (W' a c : EReal) := funext fun a => funext fun c => hW' a c
  funext r k
  have e1 : mm (fun a c => (A' a c : EReal)) (fun a c => (X' a c : EReal))
      = fun a c => ((∑ l : Fin M, A' a l * X' l c : ℝ) : EReal) := funext fun a => funext fun c => mm_coe A' X' a c
  have e2 : mm (fun a c => (X' a c : EReal)) (fun a c => (W' a c : EReal))
      = fun a c => ((∑ j : Fin D, X' a j * W' j c : ℝ) : EReal) := funext fun a => funext fun c => mm_coe X' W' a c
  rw [e1, e2, mm_coe, mm_coe]
  congr 1
  simp only [Finset.sum_mul, Finset.mul_sum]
  rw [Finset.sum_comm]
  exact Finset.sum_congr rfl fun l _ => Finset.sum_congr rfl fun j _ => mul_assoc _ _ _

/-- With real `A`, `X`, `W1` the two associations of the first pre-activation agree. -/
theorem preK_eq_preR {N D H : ℕ} (A : Fin N → Fin N → EReal) (X : Fin N → Fin D → EReal) (W1 : Fin D → Fin H → EReal)
    (b1 : Fin H → EReal)
    (hA : ∀ a c, ∃ x : ℝ, A a c = x) (hX : ∀ a c, ∃ x : ℝ, X a c = x) (hW : ∀ a c, ∃ x : ℝ, W1 a c = x) :
    preK A X W1 b1 = preR A X W1 b1 := by
  funext r k
  unfold preK preR
  rw [mm_assoc_of_real A X W1 hA hX hW]

end Cert.Gcn

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KernelPay.lean ====
/-
  What each kernel body computes, read at an index, at the ideal values.

  The first body takes a block of 400 rows of the adjacency matrix `x0`, the whole feature matrix `x1`, the weights
  `x2`, the bias row `x3` and the weights `x4`, and stores `elu ((x0 · x1) · x2 + x3) · x4`; the second takes a block
  of 400 rows of the adjacency matrix, the whole hidden matrix `x1`, the bias row `x2`, the weights `x3` and the bias
  row `x4`, and stores `elu (x0 · x1 + x2) · x3 + x4`. A change of float format is the identity on the extended
  reals, a matrix product into a zero accumulator is the sum over the contracted coordinate, a `[1, n]` row broadcast
  over the rows reads that row, and the select / compare / exponential spelling of `elu` is `elu`.
-/
import proofs.«169209_g49306224558476_cont_8to1_c_716_6_alg».proof.Proof.Gen.KernelIdeal.Skeleton
import proofs.«169209_g49306224558476_cont_8to1_c_716_6_alg».proof.Proof.Spec
import proofs.«169209_g49306224558476_cont_8to1_c_716_6_alg».proof.Proof.LibDenseLayers
import Idealize.ShloMosaic.Lib.ValueLayout

noncomputable section

namespace Cert.KernelIdeal.Pay

open Cert.KernelIdeal Cert.KernelIdeal.Gen
open Idealize.ShloMosaic Idealize.ShloMosaic.ValueIdx Idealize.ShloMosaic.DenseLayers

/-- The vector spelling of `elu`, read at an index. -/
theorem elu_vec {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = Cert.Gcn.elu (v i) :=
  Cert.Gcn.elu_kernel_form (v i)

/-- The first body's stored value at row `p` of the block and column `q`. -/
theorem pay0_apply (x0 : Vec Ideal S400x10000 .f32) (x1 : Vec Ideal S10000x128 .f32) (x2 : Vec Ideal S128x128 .f32)
    (x3 : Vec Ideal S1x128 .f32) (x4 : Vec Ideal S128x128 .f32) (p : Fin 400) (q : Fin 128) :
    k0_pay1 (F := Ideal) x0 x1 x2 x3 x4 (ix2 p q)
      = Cert.Gcn.mm (fun a j => Cert.Gcn.elu
          (Cert.Gcn.mm (Cert.Gcn.mm (fun a c => x0 (ix2 a c)) (fun a c => x1 (ix2 a c))) (fun a c => x2 (ix2 a c)) a j
            + x3 (ix2 (0 : Fin 1) j))) (fun a c => x4 (ix2 a c)) p q := by
  unfold k0_pay1
  refine (matmul_rowcol_zero_apply _ none _ _ p q).trans ?_
  refine Finset.sum_congr rfl fun k _ => congrArg (· * x4 (ix2 k q)) ?_
  refine (elu_vec _ (ix2 p k)).trans (congrArg Cert.Gcn.elu ?_)
  refine congrArg₂ (· + ·) ?_ ?_
  · refine (matmul_rowcol_zero_apply _ none _ _ p k).trans ?_
    refine Finset.sum_congr rfl fun j _ => congrArg (· * x2 (ix2 j k)) ?_
    exact matmul_rowcol_zero_apply _ none _ _ p j
  · refine (broadcastTo_1b_ab_apply _ _ p k).trans ?_
    exact congrFun (shapeCast_self x3 _) _

/-- The second body's stored value at row `p` of the block and column `q`. -/
theorem pay1_apply (x0 : Vec Ideal S400x10000 .f32) (x1 : Vec Ideal S10000x128 .f32) (x2 : Vec Ideal S1x128 .f32)
    (x3 : Vec Ideal S128x64 .f32) (x4 : Vec Ideal S1x64 .f32) (p : Fin 400) (q : Fin 64) :
    k1_pay1 (F := Ideal) x0 x1 x2 x3 x4 (ix2 p q)
      = Cert.Gcn.mm (fun a k => Cert.Gcn.elu
          (Cert.Gcn.mm (fun a c => x0 (ix2 a c)) (fun a c => x1 (ix2 a c)) a k + x2 (ix2 (0 : Fin 1) k)))
          (fun a c => x3 (ix2 a c)) p q + x4 (ix2 (0 : Fin 1) q) := by
  unfold k1_pay1
  refine congrArg₂ (· + ·) ?_ ?_
  · refine (matmul_rowcol_zero_apply _ none _ _ p q).trans ?_
    refine Finset.sum_congr rfl fun k _ => congrArg (· * x3 (ix2 k q)) ?_
    refine (elu_vec _ (ix2 p k)).trans (congrArg Cert.Gcn.elu ?_)
    refine congrArg₂ (· + ·) ?_ ?_
    · refine (matmul_rowcol_zero_apply _ none _ _ p k).trans ?_
      refine Finset.sum_congr rfl fun l _ => congrArg (x0 (ix2 p l) * ·) ?_
      exact congrFun (shapeCast_self x1 _) _
    · refine (broadcastTo_1b_ab_apply _ _ p k).trans ?_
      exact congrFun (shapeCast_self x2 _) _
  · refine (broadcastTo_1b_ab_apply _ _ p q).trans ?_
    exact congrFun (shapeCast_self x4 _) _

end Cert.KernelIdeal.Pay

end
-- ==== Proof.KernelBlocks0.lean ====
/-
  The first region's output array as one function of the arrays the region finds.

  The grid has 25 points. At point `t` the body sees rows `400 t … 400 t + 399` of the adjacency matrix (window 0), the
  whole feature matrix, both weight matrices and the bias row (windows 1 – 4, the same whole arrays at every point),
  and writes back rows `400 t … 400 t + 399` of the output (window 5). Row `r` of what a body stores depends on row
  `r` of its adjacency block only, so each written block is the restriction of ONE whole-array function, the hidden
  layer `elu ((A · X) · W1 + b1) · W2`; the 25 blocks tile the 10000 rows, so the array ends holding that function.
-/
import proofs.«169209_g49306224558476_cont_8to1_c_716_6_alg».proof.Proof.Gen.KernelIdeal.Frame
import proofs.«169209_g49306224558476_cont_8to1_c_716_6_alg».proof.Proof.KernelPay
import Idealize.ShloMosaic.Lib.Pipeline.Value

noncomputable section

namespace Cert.KernelIdeal.Blocks0

open Cert.KernelIdeal Cert.KernelIdeal.Gen
open Idealize.ShloMosaic Idealize.ShloMosaic.TcCoe Idealize.SL.Sem Idealize.ShloMosaic.ValueIdx
open Idealize.ShloMosaic.Pipeline (Dat)

/-- The hidden layer's projected activations as an array: `elu ((A · X) · W1 + b1) · W2` at `(r, k)`, the bias a
    `[1, 128]` row. -/
def Y2of (A : S10000x10000.Idx → EReal) (X : S10000x128.Idx → EReal) (W1 : S128x128.Idx → EReal)
    (b1r : S1x128.Idx → EReal) (W2 : S128x128.Idx → EReal) : S10000x128.Idx → EReal := fun i =>
  Cert.Gcn.hidden (fun a k => W2 (ix2 a k))
    (Cert.Gcn.preK (fun a l => A (ix2 a l)) (fun a k => X (ix2 a k)) (fun a k => W1 (ix2 a k))
      (fun k => b1r (ix2 (0 : Fin 1) k))) (i 0 : Fin 10000) (i 1 : Fin 128)

/-- Row `p` of what the first body stores is row `o p` of the hidden layer when its adjacency block's row `a` is row
    `o a` of the adjacency matrix. -/
theorem pay0_rows (x0 : Vec Ideal S400x10000 .f32) (x1 : Vec Ideal S10000x128 .f32) (x2 : Vec Ideal S128x128 .f32)
    (x3 : Vec Ideal S1x128 .f32) (x4 : Vec Ideal S128x128 .f32)
    (A : Fin 10000 → Fin 10000 → EReal) (o : Fin 400 → Fin 10000) (h0 : ∀ a l, x0 (ix2 a l) = A (o a) l)
    (p : Fin 400) (q : Fin 128) :
    k0_pay1 (F := Ideal) x0 x1 x2 x3 x4 (ix2 p q)
      = Cert.Gcn.hidden (fun a k => x4 (ix2 a k))
          (Cert.Gcn.preK A (fun a k => x1 (ix2 a k)) (fun a k => x2 (ix2 a k)) (fun k => x3 (ix2 (0 : Fin 1) k))) (o p) q := by
  refine (Cert.KernelIdeal.Pay.pay0_apply x0 x1 x2 x3 x4 p q).trans ?_
  have e : (fun a l => x0 (ix2 a l)) = fun a l => A (o a) l := funext fun a => funext fun l => h0 a l
  rw [e]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' index maps, decided over the grid: windows 0 and 5 move down one block of rows per point, windows
    1 – 4 stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `400 t …` of the adjacency matrix. -/
theorem iblk0_0 (c : Dev nD) (t : Fin cfg0.N) (a : Fin 400) (l : Fin 10000) (ht : 400 * t.val + a.val < 10000) :
    (iblk0 V c 0 t : Vec Ideal S400x10000 .f32) (ix2 a l)
      = (V c main_arg1 : S10000x10000.Idx → EReal) (ix2 (⟨400 * t.val + a.val, ht⟩ : Fin 10000) l) := by
  obtain ⟨e0, e1, -⟩ := idx_facts t
  unfold iblk0
  rw [View.read_apply]
  show V c main_arg1 _ = V c main_arg1 _
  congr 1
  funext ax; apply Fin.ext
  match ax with
  | ⟨0, _⟩ => show win0_0.index t (0 : Fin 2) * 400 + 1 * a.val = 400 * t.val + a.val; rw [e0]; omega
  | ⟨1, _⟩ => show win0_0.index t (1 : Fin 2) * 10000 + 1 * l.val = l.val; rw [e1]; omega

/-- Windows 1 – 4 hold their whole arrays at every point. -/
theorem iblk0_1 (c : Dev nD) (t : Fin cfg0.N) :
    (iblk0 V c 1 t : Vec Ideal S10000x128 .f32) = (V c main_arg0 : S10000x128.Idx → EReal) := by
  obtain ⟨-, -, e0, e1, -⟩ := idx_facts t
  funext x
  unfold iblk0
  rw [View.read_apply]
  show V c main_arg0 _ = V c main_arg0 _
  congr 1
  funext ax; apply Fin.ext
  match ax with
  | ⟨0, _⟩ => show win0_1.index t (0 : Fin 2) * 10000 + 1 * (x 0).val = (x 0).val; rw [e0]; omega
  | ⟨1, _⟩ => show win0_1.index t (1 : Fin 2) * 128 + 1 * (x 1).val = (x 1).val; rw [e1]; omega

theorem iblk0_2 (c : Dev nD) (t : Fin cfg0.N) :
    (iblk0 V c 2 t : Vec Ideal S128x128 .f32) = (V c main_arg2 : S128x128.Idx → EReal) := by
  obtain ⟨-, -, -, -, e0, e1, -⟩ := idx_facts t
  funext x
  unfold iblk0
  rw [View.read_apply]
  show V c main_arg2 _ = V c main_arg2 _
  congr 1
  funext ax; apply Fin.ext
  match ax with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

theorem iblk0_3 (c : Dev nD) (t : Fin cfg0.N) :
    (iblk0 V c 3 t : Vec Ideal S1x128 .f32) = (V c main_v0 : S1x128.Idx → EReal) := by
  obtain ⟨-, -, -, -, -, -, e0, e1, -⟩ := idx_facts t
  funext x
  unfold iblk0
  rw [View.read_apply]
  show V c main_v0 _ = V c main_v0 _
  congr 1
  funext ax; apply Fin.ext
  match ax with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

theorem iblk0_4 (c : Dev nD) (t : Fin cfg0.N) :
    (iblk0 V c 4 t : Vec Ideal S128x128 .f32) = (V c main_arg4 : S128x128.Idx → EReal) := by
  obtain ⟨-, -, -, -, -, -, -, -, e0, e1, -⟩ := idx_facts t
  funext x
  unfold iblk0
  rw [View.read_apply]
  show V c main_arg4 _ = V c main_arg4 _
  congr 1
  funext ax; apply Fin.ext
  match ax with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The region's output array, from the arrays the region finds. -/
abbrev Y2 (c : Dev nD) : S10000x128.Idx → EReal :=
  Y2of (V c main_arg1) (V c main_arg0) (V c main_arg2) (V c main_v0) (V c main_arg4)

/-- What point `t` writes back is block `t` of the hidden layer. -/
theorem flushed_eq (c : Dev nD) (t : Fin cfg0.N) :
    (dat0 V c).flushed 5 t = ((cfg0.win 5).blk t).view.read (Elt Ideal) (Y2 V c) := by
  have hN : t.val < 25 := lt_of_lt_of_eq t.isLt N_0
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz,
    View.ld_unit_zero (S := S128x128) hz, View.ld_unit_zero (S := S1x128) hz]
  rw [iblk0_1 V c t, iblk0_2 V c t, iblk0_3 V c t, iblk0_4 V c t]
  funext j
  have hj0 : (j 0).val < 400 := (j 0).isLt
  have hj1 : (j 1).val < 128 := (j 1).isLt
  refine (congrArg (k0_pay1 (F := Ideal) _ _ _ _ _) (eq_ix2 (win0_5.xinj (grid0.coords t) j))).trans ?_
  refine (pay0_rows _ _ _ _ _ (fun a l => (V c main_arg1 : S10000x10000.Idx → EReal) (ix2 a l))
    (fun a => (⟨400 * t.val + a.val, by have := a.isLt; omega⟩ : Fin 10000))
    (fun a l => iblk0_0 V c t a l (by have := a.isLt; omega)) _ _).trans ?_
  show _ = Y2of (V c main_arg1) (V c main_arg0) (V c main_arg2) (V c main_v0) (V c main_arg4)
    (((cfg0.win 5).blk t).view.emb j)
  unfold Y2of
  refine congrArg₂ (Cert.Gcn.hidden _ _) ?_ ?_
  · apply Fin.ext
    show 400 * t.val + (j 0).val = win0_5.index t (0 : Fin 2) * 400 + 1 * (j 0).val
    rw [e0]; omega
  · apply Fin.ext
    show (j 1).val = win0_5.index t (1 : Fin 2) * 128 + 1 * (j 1).val
    rw [e1]; omega

/-- An index of the array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v3).slice (win0_5.rect t)).set ↔ _
  rw [View.set_slice_whole, Rect.mem_set_unit]
  exact Iff.rfl

/-- Every row is in the block of the point `r / 400`. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, -, -, e0, e1⟩ := idx_facts t
  have ht : t.val = (i 0).val / 400 := rfl
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 128 ≤ (i 1).val ∧ (i 1).val < win0_5.index t (1 : Fin 2) * 128 + 128; rw [e1]; omega

/-- THE ARRAY after the region: the hidden layer of the arrays the region finds. -/
theorem final (c : Dev nD) : (dat0 V c).arrAt 5 cfg0.N = Y2 V c :=
  (dat0 V c).arrAt_eq_of_cover 5 (Y2 V c) (fun t _ => flushed_eq V c t) (cover)

end Cert.KernelIdeal.Blocks0

end
-- ==== Proof.KernelBlocks1.lean ====
/-
  The second region's output array as one function of the arrays the region finds.

  The grid has 25 points. At point `t` the body sees rows `400 t … 400 t + 399` of the adjacency matrix (window 0), the
  whole hidden matrix, the bias row, the output weights and the output bias row (windows 1 – 4, the same whole arrays
  at every point), and writes back rows `400 t … 400 t + 399` of the result (window 5). Row `r` of what a body stores
  depends on row `r` of its adjacency block only, so each written block is the restriction of ONE whole-array
  function, the output layer `elu (A · Y + b2) · Wo + bo`; the 25 blocks tile the 10000 rows, so the array ends holding
  that function.
-/
import proofs.«169209_g49306224558476_cont_8to1_c_716_6_alg».proof.Proof.Gen.KernelIdeal.Frame
import proofs.«169209_g49306224558476_cont_8to1_c_716_6_alg».proof.Proof.KernelPay
import Idealize.ShloMosaic.Lib.Pipeline.Value

noncomputable section

namespace Cert.KernelIdeal.Blocks1

open Cert.KernelIdeal Cert.KernelIdeal.Gen
open Idealize.ShloMosaic Idealize.ShloMosaic.TcCoe Idealize.SL.Sem Idealize.ShloMosaic.ValueIdx
open Idealize.ShloMosaic.Pipeline (Dat)

/-- The output layer as an array: `elu (A · Y + b2) · Wo + bo` at `(r, q)`, the biases `[1, n]` rows. -/
def Outof (A : S10000x10000.Idx → EReal) (Y : S10000x128.Idx → EReal) (b2r : S1x128.Idx → EReal)
    (Wo : S128x64.Idx → EReal) (bor : S1x64.Idx → EReal) : S10000x64.Idx → EReal := fun i =>
  Cert.Gcn.outLayer (fun a l => A (ix2 a l)) (fun k => b2r (ix2 (0 : Fin 1) k)) (fun a k => Wo (ix2 a k))
    (fun k => bor (ix2 (0 : Fin 1) k)) (fun a k => Y (ix2 a k)) (i 0 : Fin 10000) (i 1 : Fin 64)

/-- Row `p` of what the second body stores is row `o p` of the output layer when its adjacency block's row `a` is
    row `o a` of the adjacency matrix. -/
theorem pay1_rows (x0 : Vec Ideal S400x10000 .f32) (x1 : Vec Ideal S10000x128 .f32) (x2 : Vec Ideal S1x128 .f32)
    (x3 : Vec Ideal S128x64 .f32) (x4 : Vec Ideal S1x64 .f32)
    (A : Fin 10000 → Fin 10000 → EReal) (o : Fin 400 → Fin 10000) (h0 : ∀ a l, x0 (ix2 a l) = A (o a) l)
    (p : Fin 400) (q : Fin 64) :
    k1_pay1 (F := Ideal) x0 x1 x2 x3 x4 (ix2 p q)
      = Cert.Gcn.outLayer A (fun k => x2 (ix2 (0 : Fin 1) k)) (fun a k => x3 (ix2 a k)) (fun k => x4 (ix2 (0 : Fin 1) k))
          (fun a k => x1 (ix2 a k)) (o p) q := by
  refine (Cert.KernelIdeal.Pay.pay1_apply x0 x1 x2 x3 x4 p q).trans ?_
  have e : (fun a l => x0 (ix2 a l)) = fun a l => A (o a) l := funext fun a => funext fun l => h0 a l
  rw [e]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' index maps, decided over the grid: windows 0 and 5 move down one block of rows per point, windows
    1 – 4 stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `400 t …` of the adjacency matrix. -/
theorem iblk1_0 (c : Dev nD) (t : Fin cfg1.N) (a : Fin 400) (l : Fin 10000) (ht : 400 * t.val + a.val < 10000) :
    (iblk1 V c 0 t : Vec Ideal S400x10000 .f32) (ix2 a l)
      = (V c main_arg1 : S10000x10000.Idx → EReal) (ix2 (⟨400 * t.val + a.val, ht⟩ : Fin 10000) l) := by
  obtain ⟨e0, e1, -⟩ := idx_facts t
  unfold iblk1
  rw [View.read_apply]
  show V c main_arg1 _ = V c main_arg1 _
  congr 1
  funext ax; apply Fin.ext
  match ax with
  | ⟨0, _⟩ => show win1_0.index t (0 : Fin 2) * 400 + 1 * a.val = 400 * t.val + a.val; rw [e0]; omega
  | ⟨1, _⟩ => show win1_0.index t (1 : Fin 2) * 10000 + 1 * l.val = l.val; rw [e1]; omega

/-- Windows 1 – 4 hold their whole arrays at every point. -/
theorem iblk1_1 (c : Dev nD) (t : Fin cfg1.N) :
    (iblk1 V c 1 t : Vec Ideal S10000x128 .f32) = (V c main_v3 : S10000x128.Idx → EReal) := by
  obtain ⟨-, -, e0, e1, -⟩ := idx_facts t
  funext x
  unfold iblk1
  rw [View.read_apply]
  show V c main_v3 _ = V c main_v3 _
  congr 1
  funext ax; apply Fin.ext
  match ax with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

theorem iblk1_2 (c : Dev nD) (t : Fin cfg1.N) :
    (iblk1 V c 2 t : Vec Ideal S1x128 .f32) = (V c main_v1 : S1x128.Idx → EReal) := by
  obtain ⟨-, -, -, -, e0, e1, -⟩ := idx_facts t
  funext x
  unfold iblk1
  rw [View.read_apply]
  show V c main_v1 _ = V c main_v1 _
  congr 1
  funext ax; apply Fin.ext
  match ax with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

theorem iblk1_3 (c : Dev nD) (t : Fin cfg1.N) :
    (iblk1 V c 3 t : Vec Ideal S128x64 .f32) = (V c main_arg6 : S128x64.Idx → EReal) := by
  obtain ⟨-, -, -, -, -, -, e0, e1, -⟩ := idx_facts t
  funext x
  unfold iblk1
  rw [View.read_apply]
  show V c main_arg6 _ = V c main_arg6 _
  congr 1
  funext ax; apply Fin.ext
  match ax with
  | ⟨0, _⟩ => show win1_3.index t (0 : Fin 2) * 128 + 1 * (x 0).val = (x 0).val; rw [e0]; omega
  | ⟨1, _⟩ => show win1_3.index t (1 : Fin 2) * 64 + 1 * (x 1).val = (x 1).val; rw [e1]; omega

theorem iblk1_4 (c : Dev nD) (t : Fin cfg1.N) :
    (iblk1 V c 4 t : Vec Ideal S1x64 .f32) = (V c main_v2 : S1x64.Idx → EReal) := by
  obtain ⟨-, -, -, -, -, -, -, -, e0, e1, -⟩ := idx_facts t
  funext x
  unfold iblk1
  rw [View.read_apply]
  show V c main_v2 _ = V c main_v2 _
  congr 1
  funext ax; apply Fin.ext
  match ax with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The region's output array, from the arrays the region finds. -/
abbrev Out (c : Dev nD) : S10000x64.Idx → EReal :=
  Outof (V c main_arg1) (V c main_v3) (V c main_v1) (V c main_arg6) (V c main_v2)

/-- What point `t` writes back is block `t` of the output layer. -/
theorem flushed_eq (c : Dev nD) (t : Fin cfg1.N) :
    (dat1 V c).flushed 5 t = ((cfg1.win 5).blk t).view.read (Elt Ideal) (Out V c) := by
  have hN : t.val < 25 := lt_of_lt_of_eq t.isLt N_1
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz,
    View.ld_unit_zero (S := S128x64) hz, View.ld_unit_zero (S := S1x128) hz, View.ld_unit_zero (S := S1x64) hz]
  rw [iblk1_1 V c t, iblk1_2 V c t, iblk1_3 V c t, iblk1_4 V c t]
  funext j
  have hj0 : (j 0).val < 400 := (j 0).isLt
  have hj1 : (j 1).val < 64 := (j 1).isLt
  refine (congrArg (k1_pay1 (F := Ideal) _ _ _ _ _) (eq_ix2 (win1_5.xinj (grid1.coords t) j))).trans ?_
  refine (pay1_rows _ _ _ _ _ (fun a l => (V c main_arg1 : S10000x10000.Idx → EReal) (ix2 a l))
    (fun a => (⟨400 * t.val + a.val, by have := a.isLt; omega⟩ : Fin 10000))
    (fun a l => iblk1_0 V c t a l (by have := a.isLt; omega)) _ _).trans ?_
  show _ = Outof (V c main_arg1) (V c main_v3) (V c main_v1) (V c main_arg6) (V c main_v2)
    (((cfg1.win 5).blk t).view.emb j)
  unfold Outof
  refine congrArg₂ (Cert.Gcn.outLayer _ _ _ _ _) ?_ ?_
  · apply Fin.ext
    show 400 * t.val + (j 0).val = win1_5.index t (0 : Fin 2) * 400 + 1 * (j 0).val
    rw [e0]; omega
  · apply Fin.ext
    show (j 1).val = win1_5.index t (1 : Fin 2) * 64 + 1 * (j 1).val
    rw [e1]; omega

/-- An index of the array is in point `t`'s block iff each coordinate is in the block's range on its axis. -/
theorem mem_blk (t : Fin cfg1.N) (i : S10000x64.Idx) :
    i ∈ ((cfg1.win 5).blk t).view.set ↔ ∀ a : Fin 2, win1_5.index t a * S400x64.size a ≤ (i a).val ∧ (i a).val < win1_5.index t a * S400x64.size a + S400x64.size a := by
  show i ∈ ((View.whole main_v4).slice (win1_5.rect t)).set ↔ _
  rw [View.set_slice_whole, Rect.mem_set_unit]
  exact Iff.rfl

/-- Every row is in the block of the point `r / 400`. -/
theorem cover (i : S10000x64.Idx) :
    ∃ t : Fin cfg1.N, (cfg1.win 5).flush t = true ∧ i ∈ ((cfg1.win 5).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, -, -, -, -, e0, e1⟩ := idx_facts t
  have ht : t.val = (i 0).val / 400 := rfl
  refine ⟨t, flush1_5 t, ?_⟩
  rw [mem_blk]
  intro a
  match a with
  | ⟨0, _⟩ => show win1_5.index t (0 : Fin 2) * 400 ≤ (i 0).val ∧ (i 0).val < win1_5.index t (0 : Fin 2) * 400 + 400; rw [e0, ht]; omega
  | ⟨1, _⟩ => show win1_5.index t (1 : Fin 2) * 64 ≤ (i 1).val ∧ (i 1).val < win1_5.index t (1 : Fin 2) * 64 + 64; rw [e1]; omega

/-- THE ARRAY after the region: the output layer of the arrays the region finds. -/
theorem final (c : Dev nD) : (dat1 V c).arrAt 5 cfg1.N = Out V c :=
  (dat1 V c).arrAt_eq_of_cover 5 (Out V c) (fun t _ => flushed_eq V c t) (cover)

end Cert.KernelIdeal.Blocks1

end
-- ==== Proof.KernelValue.lean ====
/-
  The idealized kernel's result as one function of its eight arguments.

  The run ends with the result buffer at the last boundary's contents (`RunValue.run_value`). Walking the boundaries
  back: the second region leaves in it the output layer of the arrays it finds (`Blocks1.final`); of those, the hidden
  matrix is what the first region left, the hidden layer of the arrays IT found (`Blocks0.final`); every other array a
  region reads is as the host stretch left it, and the host stretch only casts the three bias vectors `[n]` to rows
  `[1, n]` and leaves the arguments alone. A `[n]` vector cast to a `[1, n]` row reads, at `(0, k)`, the vector at `k`;
  so at `(r, q)` the result is the specification's `tail` of the first pre-activation `(A · X) · W1 + b1`.
-/
import proofs.«169209_g49306224558476_cont_8to1_c_716_6_alg».proof.Proof.KernelRun
import proofs.«169209_g49306224558476_cont_8to1_c_716_6_alg».proof.Proof.KernelBlocks0
import proofs.«169209_g49306224558476_cont_8to1_c_716_6_alg».proof.Proof.KernelBlocks1
import Idealize.ShloMosaic.Lib.StableHlo.Run
import Idealize.ShloMosaic.Lib.ValueLayout

noncomputable section

namespace Cert.KernelIdeal.HandValue

open Cert.KernelIdeal Cert.KernelIdeal.Gen
open Idealize.ShloMosaic Idealize.ShloMosaic.TcCoe Idealize.SL.Sem Idealize.ShloMosaic.ValueIdx
open Idealize.ShloMosaic.StableHlo

/-- The kernel program's result from its eight argument arrays: the output layer over the hidden layer, the three
    biases as rows. -/
def kernelOut (X : S10000x128.Idx → EReal) (A : S10000x10000.Idx → EReal) (W1 : S128x128.Idx → EReal)
    (b1 : S128.Idx → EReal) (W2 : S128x128.Idx → EReal) (b2 : S128.Idx → EReal) (Wo : S128x64.Idx → EReal)
    (bo : S64.Idx → EReal) : S10000x64.Idx → EReal :=
  Blocks1.Outof A (Blocks0.Y2of A X W1 (shapeCast S1x128 b1 Facts₀.shapeCasts_S128_S1x128) W2)
    (shapeCast S1x128 b2 Facts₀.shapeCasts_S128_S1x128) Wo (shapeCast S1x64 bo Facts₀.shapeCasts_S64_S1x64)

/-- The result at `(r, q)` is the specification's network with the features aggregated first. -/
theorem kernelOut_apply (X : S10000x128.Idx → EReal) (A : S10000x10000.Idx → EReal) (W1 : S128x128.Idx → EReal)
    (b1 : S128.Idx → EReal) (W2 : S128x128.Idx → EReal) (b2 : S128.Idx → EReal) (Wo : S128x64.Idx → EReal)
    (bo : S64.Idx → EReal) (r : Fin 10000) (q : Fin 64) :
    kernelOut X A W1 b1 W2 b2 Wo bo (ix2 r q)
      = Cert.Gcn.tail (fun a c => A (ix2 a c)) (fun a c => W2 (ix2 a c)) (fun k => b2 (ix1 k)) (fun a c => Wo (ix2 a c))
          (fun k => bo (ix1 k))
          (Cert.Gcn.preK (fun a c => A (ix2 a c)) (fun a c => X (ix2 a c)) (fun a c => W1 (ix2 a c)) (fun k => b1 (ix1 k))) r q := by
  have e1 : (fun k : Fin 128 => shapeCast S1x128 b1 Facts₀.shapeCasts_S128_S1x128 (ix2 (0 : Fin 1) k)) = fun k => b1 (ix1 k) :=
    funext fun k => shapeCast_a_1a_apply b1 _ 0 k
  have e2 : (fun k : Fin 128 => shapeCast S1x128 b2 Facts₀.shapeCasts_S128_S1x128 (ix2 (0 : Fin 1) k)) = fun k => b2 (ix1 k) :=
    funext fun k => shapeCast_a_1a_apply b2 _ 0 k
  have e3 : (fun k : Fin 64 => shapeCast S1x64 bo Facts₀.shapeCasts_S64_S1x64 (ix2 (0 : Fin 1) k)) = fun k => bo (ix1 k) :=
    funext fun k => shapeCast_a_1a_apply bo _ 0 k
  show Cert.Gcn.outLayer (fun a l => A (ix2 a l))
      (fun k => shapeCast S1x128 b2 Facts₀.shapeCasts_S128_S1x128 (ix2 (0 : Fin 1) k)) (fun a k => Wo (ix2 a k))
      (fun k => shapeCast S1x64 bo Facts₀.shapeCasts_S64_S1x64 (ix2 (0 : Fin 1) k))
      (Cert.Gcn.hidden (fun a k => W2 (ix2 a k))
        (Cert.Gcn.preK (fun a l => A (ix2 a l)) (fun a k => X (ix2 a k)) (fun a k => W1 (ix2 a k))
          (fun k => shapeCast S1x128 b1 Facts₀.shapeCasts_S128_S1x128 (ix2 (0 : Fin 1) k)))) r q = _
  rw [e1, e2, e3]
  rfl

variable (m : (ℓ : Loc nD τ sig) → Buf (Elt Ideal) ℓ) (ρ : Dev nD → PrngReg)

/-! ## The contents after the host stretch -/

theorem V1_v0 (c : Dev nD) : V1 m ρ c main_v0 = shapeCast S1x128 (m ((c : Thread nD τ).loc main_arg3)) Facts₀.shapeCasts_S128_S1x128 := by
  show StableHlo.after hostOps0 (W0 m ρ c) (Proc.devRef .tc main_v0) = _
  after_results
  try rfl
theorem V1_v1 (c : Dev nD) : V1 m ρ c main_v1 = shapeCast S1x128 (m ((c : Thread nD τ).loc main_arg5)) Facts₀.shapeCasts_S128_S1x128 := by
  show StableHlo.after hostOps0 (W0 m ρ c) (Proc.devRef .tc main_v1) = _
  after_results
  try rfl
theorem V1_v2 (c : Dev nD) : V1 m ρ c main_v2 = shapeCast S1x64 (m ((c : Thread nD τ).loc main_arg7)) Facts₀.shapeCasts_S64_S1x64 := by
  show StableHlo.after hostOps0 (W0 m ρ c) (Proc.devRef .tc main_v2) = _
  after_results
  try rfl
theorem V1_arg0 (c : Dev nD) : V1 m ρ c main_arg0 = m ((c : Thread nD τ).loc main_arg0) := by
  show StableHlo.after hostOps0 (W0 m ρ c) (Proc.devRef .tc main_arg0) = _
  after_results
  try rfl
theorem V1_arg1 (c : Dev nD) : V1 m ρ c main_arg1 = m ((c : Thread nD τ).loc main_arg1) := by
  show StableHlo.after hostOps0 (W0 m ρ c) (Proc.devRef .tc main_arg1) = _
  after_results
  try rfl
theorem V1_arg2 (c : Dev nD) : V1 m ρ c main_arg2 = m ((c : Thread nD τ).loc main_arg2) := by
  show StableHlo.after hostOps0 (W0 m ρ c) (Proc.devRef .tc main_arg2) = _
  after_results
  try rfl
theorem V1_arg4 (c : Dev nD) : V1 m ρ c main_arg4 = m ((c : Thread nD τ).loc main_arg4) := by
  show StableHlo.after hostOps0 (W0 m ρ c) (Proc.devRef .tc main_arg4) = _
  after_results
  try rfl
theorem V1_arg6 (c : Dev nD) : V1 m ρ c main_arg6 = m ((c : Thread nD τ).loc main_arg6) := by
  show StableHlo.after hostOps0 (W0 m ρ c) (Proc.devRef .tc main_arg6) = _
  after_results
  try rfl

/-! ## The contents after the first region -/

/-- The hidden matrix: what the first region's write-backs leave. -/
theorem V2_v3 (c : Dev nD) : V2 m ρ c main_v3
    = Blocks0.Y2of (m ((c : Thread nD τ).loc main_arg1)) (m ((c : Thread nD τ).loc main_arg0)) (m ((c : Thread nD τ).loc main_arg2))
        (shapeCast S1x128 (m ((c : Thread nD τ).loc main_arg3)) Facts₀.shapeCasts_S128_S1x128) (m ((c : Thread nD τ).loc main_arg4)) := by
  refine ((W2_arr m ρ c 5).trans (Blocks0.final (V1 m ρ) c)).trans ?_
  show Blocks0.Y2of (V1 m ρ c main_arg1) (V1 m ρ c main_arg0) (V1 m ρ c main_arg2) (V1 m ρ c main_v0) (V1 m ρ c main_arg4) = _
  rw [V1_arg1, V1_arg0, V1_arg2, V1_v0, V1_arg4]

/-- The adjacency matrix, an input of the first region, is as launched. -/
theorem V2_arg1 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (V1_arg1 m ρ c)

/-- The buffers the first region does not touch are as the host stretch left them. -/
theorem V2_v1 (c : Dev nD) : V2 m ρ c main_v1 = shapeCast S1x128 (m ((c : Thread nD τ).loc main_arg5)) Facts₀.shapeCasts_S128_S1x128 :=
  (W2_of_ne m ρ c main_v1 (by decide)).trans (V1_v1 m ρ c)
theorem V2_v2 (c : Dev nD) : V2 m ρ c main_v2 = shapeCast S1x64 (m ((c : Thread nD τ).loc main_arg7)) Facts₀.shapeCasts_S64_S1x64 :=
  (W2_of_ne m ρ c main_v2 (by decide)).trans (V1_v2 m ρ c)
theorem V2_arg6 (c : Dev nD) : V2 m ρ c main_arg6 = m ((c : Thread nD τ).loc main_arg6) :=
  (W2_of_ne m ρ c main_arg6 (by decide)).trans (V1_arg6 m ρ c)

/-! ## The result -/

/-- The result buffer at the last boundary is `kernelOut` of the launch contents of the arguments. -/
theorem result_eq (c : Dev nD) : W3 m ρ c (Proc.devRef .tc main_v4)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W3_arr m ρ c 5).trans (Blocks1.final (V2 m ρ) c)).trans ?_
  show Blocks1.Outof (V2 m ρ c main_arg1) (V2 m ρ c main_v3) (V2 m ρ c main_v1) (V2 m ρ c main_arg6) (V2 m ρ c main_v2) = _
  rw [V2_arg1, V2_v3, V2_v1, V2_arg6, V2_v2]
  rfl

/-- The run, read: the result array at `kernelOut` of the arguments, the arguments unchanged. -/
theorem run : θ_run defs (onTc (τ := τ) (main (F := Ideal))) ⟨m, fun _ => 0, ρ⟩ (fun r => ∀ c : Dev nD,
      r.2.mem ((c.tc : Thread nD τ).loc main_v4)
        = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.RunValue.run_value (F := Ideal) m ρ)

end Cert.KernelIdeal.HandValue

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.RefRead.lean ====
/-
  The reference's result as one term of its eight arguments, and that term read at an index: the two-layer graph
  network of the specification, with the first pre-activation associated as `A · (X · W1) + b1`.
-/
import proofs.«169209_g49306224558476_cont_8to1_c_716_6_alg».proof.ReferenceIdeal
import proofs.«169209_g49306224558476_cont_8to1_c_716_6_alg».proof.Proof.Spec
import proofs.«169209_g49306224558476_cont_8to1_c_716_6_alg».proof.Proof.LibHostMatmul
import Idealize.ShloMosaic.PureOps.Ideal
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx Idealize.ShloMosaic.DenseLayers
open Cert.ReferenceIdeal.Facts₀ Cert.ReferenceIdeal.Facts

variable [Cert.ReferenceIdeal.Facts]

/-! ## The result as a term -/

/-- @elu's body as a function of its argument: `select (x > 0) x (1 * expm1 (select (x > 0) 0 x))`, the constants
    broadcast from scalars. -/
def eluT (x : FVec Ideal S10000x128 .f32) : FVec Ideal S10000x128 .f32 :=
  select (cmpf .ogt x (broadcastInDim S10000x128 ![] bcast_S_S10000x128 (constant (F := Ideal) S_ .f32 0x00000000#32))) x
    (mulf (broadcastInDim S10000x128 ![] bcast_S_S10000x128 (constant (F := Ideal) S_ .f32 0x3F800000#32))
      (Host.expm1 (select (cmpf .ogt x (broadcastInDim S10000x128 ![] bcast_S_S10000x128 (constant (F := Ideal) S_ .f32 0x00000000#32)))
        (broadcastInDim S10000x128 ![] bcast_S_S10000x128 (id (constant (F := Ideal) S_ .f32 0x00000000#32))) x)))

/-- A layer's pre-activation: `A · Y + b`, the bias broadcast over the rows. -/
def preT (A : FVec Ideal S10000x10000 .f32) (Y : FVec Ideal S10000x128 .f32) (b : FVec Ideal S128 .f32) :
    FVec Ideal S10000x128 .f32 :=
  addf (Host.dotGeneral dot_S10000x10000_S10000x128_S10000x128_1_0_0_1_n_n none A Y)
    (broadcastInDim S10000x128 ![0, 1] bcast_S1x128_S10000x128_0_1 (broadcastInDim S1x128 ![1] bcast_S128_S1x128_1 b))

/-- The reference's result as one term of its eight arguments: the operations composed in the program's order. -/
def refOut (X : FVec Ideal S10000x128 .f32) (A : FVec Ideal S10000x10000 .f32) (W1 : FVec Ideal S128x128 .f32)
    (b1 : FVec Ideal S128 .f32) (W2 : FVec Ideal S128x128 .f32) (b2 : FVec Ideal S128 .f32)
    (Wo : FVec Ideal S128x64 .f32) (bo : FVec Ideal S64 .f32) : FVec Ideal S10000x64 .f32 :=
  addf
    (Host.dotGeneral dot_S10000x128_S128x64_S10000x64_1_0_0_1_n_n none
      (eluT (preT A
        (Host.dotGeneral dot_S10000x128_S128x128_S10000x128_1_0_0_1_n_n none
          (eluT (preT A (Host.dotGeneral dot_S10000x128_S128x128_S10000x128_1_0_0_1_n_n none X W1) b1)) W2) b2))
      Wo)
    (broadcastInDim S10000x64 ![0, 1] bcast_S1x64_S10000x64_0_1 (broadcastInDim S1x64 ![1] bcast_S64_S1x64_1 bo))

/-! ## The stages at an index -/

/-- @elu's body at an index is the exponential linear unit of the argument's entry. -/
theorem eluT_apply (x : FVec Ideal S10000x128 .f32) (j : S10000x128.Idx) : eluT x j = Cert.Gcn.elu (x j) :=
  Cert.Gcn.elu_reference_form (x j)

/-- A `[128]` bias broadcast to `[1, 128]` and then over the 10000 rows reads, at `(r, k)`, its entry `k`. -/
theorem bias128_apply (b : FVec Ideal S128 .f32) (r : Fin 10000) (k : Fin 128) :
    broadcastInDim S10000x128 ![0, 1] bcast_S1x128_S10000x128_0_1 (broadcastInDim S1x128 ![1] bcast_S128_S1x128_1 b) (ix2 r k)
      = b (ix1 k) := by
  refine (broadcastInDim_apply _ _ _ (ix2 r k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- A `[64]` bias broadcast to `[1, 64]` and then over the 10000 rows reads, at `(r, q)`, its entry `q`. -/
theorem bias64_apply (b : FVec Ideal S64 .f32) (r : Fin 10000) (q : Fin 64) :
    broadcastInDim S10000x64 ![0, 1] bcast_S1x64_S10000x64_0_1 (broadcastInDim S1x64 ![1] bcast_S64_S1x64_1 b) (ix2 r q)
      = b (ix1 q) := by
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The `[10000, 128] · [128, 128]` product at an entry. -/
theorem dotA_apply (Y : FVec Ideal S10000x128 .f32) (W : FVec Ideal S128x128 .f32) (a : Fin 10000) (k : Fin 128) :
    Host.dotGeneral dot_S10000x128_S128x128_S10000x128_1_0_0_1_n_n none Y W (ix2 a k)
      = Cert.Gcn.mm (fun a c => Y (ix2 a c)) (fun a c => W (ix2 a c)) a k :=
  dotGeneral_rowcol_apply _ none Y W a k

/-- The `[10000, 10000] · [10000, 128]` product at an entry. -/
theorem dotB_apply (A : FVec Ideal S10000x10000 .f32) (Y : FVec Ideal S10000x128 .f32) (a : Fin 10000) (k : Fin 128) :
    Host.dotGeneral dot_S10000x10000_S10000x128_S10000x128_1_0_0_1_n_n none A Y (ix2 a k)
      = Cert.Gcn.mm (fun a c => A (ix2 a c)) (fun a c => Y (ix2 a c)) a k :=
  dotGeneral_rowcol_apply _ none A Y a k

/-- The `[10000, 128] · [128, 64]` product at an entry. -/
theorem dotC_apply (Y : FVec Ideal S10000x128 .f32) (W : FVec Ideal S128x64 .f32) (a : Fin 10000) (q : Fin 64) :
    Host.dotGeneral dot_S10000x128_S128x64_S10000x64_1_0_0_1_n_n none Y W (ix2 a q)
      = Cert.Gcn.mm (fun a c => Y (ix2 a c)) (fun a c => W (ix2 a c)) a q :=
  dotGeneral_rowcol_apply _ none Y W a q

/-- A layer's pre-activation at an entry. -/
theorem preT_apply (A : FVec Ideal S10000x10000 .f32) (Y : FVec Ideal S10000x128 .f32) (b : FVec Ideal S128 .f32)
    (a : Fin 10000) (k : Fin 128) :
    preT A Y b (ix2 a k) = Cert.Gcn.mm (fun a c => A (ix2 a c)) (fun a c => Y (ix2 a c)) a k + b (ix1 k) := by
  unfold preT
  rw [addf_apply, dotB_apply, bias128_apply]

/-! ## The result at an index -/

/-- The reference's result at `(r, q)` is the specification's network, the first pre-activation with the features
    projected first. -/
theorem refOut_apply (X : FVec Ideal S10000x128 .f32) (A : FVec Ideal S10000x10000 .f32) (W1 : FVec Ideal S128x128 .f32)
    (b1 : FVec Ideal S128 .f32) (W2 : FVec Ideal S128x128 .f32) (b2 : FVec Ideal S128 .f32)
    (Wo : FVec Ideal S128x64 .f32) (bo : FVec Ideal S64 .f32) (r : Fin 10000) (q : Fin 64) :
    refOut X A W1 b1 W2 b2 Wo bo (ix2 r q)
      = Cert.Gcn.tail (fun a c => A (ix2 a c)) (fun a c => W2 (ix2 a c)) (fun k => b2 (ix1 k)) (fun a c => Wo (ix2 a c))
          (fun k => bo (ix1 k))
          (Cert.Gcn.preR (fun a c => A (ix2 a c)) (fun a c => X (ix2 a c)) (fun a c => W1 (ix2 a c)) (fun k => b1 (ix1 k))) r q := by
  unfold refOut
  rw [addf_apply, dotC_apply, bias64_apply]
  simp only [eluT_apply, preT_apply, dotA_apply]
  rfl

end Cert.ReferenceIdeal.RefValue

end
-- ==== Proof.RefRun.lean ====
/-
  The reference program's run. Its @main is a straight line of 44 host operations once the two calls of @elu
  (each calling @_where and @_where_0) are put in their places: three row-by-column products and a bias per layer,
  the exponential linear unit after the first two. Here: the list of those operations, that @main is the list run in
  order, and the run read back — every weakly fair execution terminates, the result buffer holds `refOut` of the
  eight arguments' launch contents (the operations composed, as one term: defined beside its reading at an index), and
  the arguments are unchanged.
-/
import proofs.«169209_g49306224558476_cont_8to1_c_716_6_alg».proof.ReferenceIdeal
import proofs.«169209_g49306224558476_cont_8to1_c_716_6_alg».proof.Proof.RefRead
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-! ## The operations -/

variable {F : FTy → Type} [FloatOps F]

/-- @main's 44 operations, in order, each call's operations in the call's place over that call's buffers. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v4 : TRef sig ⟨S10000x128, .f32⟩) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v4 : TRef sig ⟨S10000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v4 : TRef sig ⟨S10000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v4 : TRef sig ⟨S10000x128, .f32⟩) main_call0.v7 main_call0.call1.v0 select,
    binary main_v5 main_arg4 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v10 : TRef sig ⟨S10000x128, .f32⟩) main_call1.v0 main_call1.v1 (cmpf .ogt),
    TRef.nullary main_call1.cst_0 (constant S_ .f32 0x00000000#32),
    TRef.unary main_call1.cst_0 main_call1.v2 (broadcastInDim S10000x128 ![] bcast_S_S10000x128),
    TRef.binary (.of main_v10 : TRef sig ⟨S10000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x128 ![] bcast_S_S10000x128),
    TRef.ternary main_call1.v3 main_call1.call0.v1 (.of main_v10 : TRef sig ⟨S10000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S10000x128 ![] bcast_S_S10000x128),
    TRef.binary main_call1.v6 main_call1.v5 main_call1.v7 mulf,
    TRef.ternary main_call1.v1 (.of main_v10 : TRef sig ⟨S10000x128, .f32⟩) main_call1.v7 main_call1.call1.v0 select,
    binary main_v11 main_arg6 main_v12 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S10000x64 ![0, 1] bcast_S1x64_S10000x64_0_1 : (⟨S1x64, .f32⟩ : BufTy).Contents (Elt F) → (⟨S10000x64, .f32⟩ : BufTy).Contents (Elt F)),
    binary main_v12 main_v14 main_v15 (addf : (⟨S10000x64, .f32⟩ : BufTy).Contents (Elt F) → (⟨S10000x64, .f32⟩ : BufTy).Contents (Elt F) → (⟨S10000x64, .f32⟩ : BufTy).Contents (Elt F)) ]

set_option maxRecDepth 8192 in
/-- @main is that straight line: the functions' definitions unfolded at their calls, the sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub ..⟩

/-! ## The run -/

set_option maxRecDepth 8192 in
set_option maxHeartbeats 4000000 in
/-- The line's fold at the result buffer is `refOut` of the contents at the eight argument buffers: each operation's
    result read off at its own buffer, the typed references' transports being the identity at these literal
    references. -/
theorem out_eq (V : Valuation τ sig (Elt Ideal)) :
    after (ops (F := Ideal)) V (main_v15 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  simp only [TRef.toBuf, TRef.ofBuf, cast_eq]
  rfl

set_option maxRecDepth 8192 in
set_option maxHeartbeats 4000000 in
/-- On the device, at the ideal values, from any memory with zero counters: every weakly fair execution of @main
    terminates with the result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v15).trans (out_eq (launchContents m c)),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.ReferenceIdeal.RefValue

end
-- ==== Proof.LibFiniteEntries.lean ====
/-
  Finite entries from an "all entries are finite" predicate, at the ideal values (the extended reals).

  The predicate `all(|x| < +∞)` on an f32 array `x` of any shape is the reduction by `and`, over all axes and from the
  constant 1, of the comparison `|x| < +∞`, the bound being the f32 pattern of `+∞` broadcast from a scalar. At the ideal
  values `|x| = max x (−x)` and the pattern is `⊤`, so the comparison being 1 at an entry says that the entry is neither
  `⊤` nor `⊥`: it is a real number.

  * `ofBits_inf_f32`: the f32 pattern `0x7F800000` is `⊤`.
  * `real_of_abs_lt_inf`: one value whose `|x| < +∞` compares to 1 is a real.
  * `real_of_all_abs_lt_inf`: an array whose `all(|x| < +∞)` is 1 has only real entries.
-/
import Idealize.ShloMosaic.Lib.ReduceAll
import Idealize.ShloMosaic.PureOps.Ideal
import Idealize.ShloMosaic.PureOps.Ideal.Laws

noncomputable section

namespace Idealize.ShloMosaic.FiniteEntries

open Idealize.ShloMosaic

/-- The f32 pattern of `+∞` denotes `⊤`. -/
theorem ofBits_inf_f32 : Ideal.ofBits .f32 0x7F800000#32 = (⊤ : EReal) := by
  simp [Ideal.ofBits, Ideal.ieee]

/-- One value: if `|x| < +∞` compares to 1 then `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf_f32] at h'
  have hlt : max (x : EReal) (-(x : EReal)) < ⊤ := by
    by_contra hn
    simp [Ideal.cmp, hn] at h'
  rw [max_lt_iff] at hlt
  induction x using EReal.rec with
  | bot => exact absurd hlt.2 (by simp)
  | coe r => exact ⟨r, rfl⟩
  | top => exact absurd hlt.1 (by simp)

/-- An f32 array of any shape whose `all(|x| < +∞)` — the reduction by `and` over all axes of the comparison of
    `|x|` with the broadcast pattern of `+∞` — is 1 has only real entries. -/
theorem real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
        (cmpf .olt (Host.absf x) (broadcastInDim s dims hb (constant (F := Ideal) v .f32 0x7F800000#32))) init h hu j
      = 1#1)
    (i : s.Idx) : ∃ r : ℝ, x i = (r : EReal) :=
  real_of_abs_lt_inf (x i) (Host.reduce_andi_all _ init h hu j e i)

end Idealize.ShloMosaic.FiniteEntries

end
-- ==== Proof.Finite.lean ====
/-
  Finiteness of the first three argument arrays, from the certificate's precondition.

  The precondition says that the conjunction, over the eight argument arrays, of `all(|·| < +∞)` is 1 on every device.
  A conjunction of `i1` words is 1 only if each conjunct is, so the conjuncts of the node features `X` (argument 0,
  `[10000, 128]`), of the adjacency matrix `A` (argument 1, `[10000, 10000]`) and of the first weight matrix `W1`
  (argument 2, `[128, 128]`) are 1; an array whose `all(|·| < +∞)` is 1 has only real entries
  (`FiniteEntries.real_of_all_abs_lt_inf`). Nothing here ranges over an index set: each step is a universally quantified
  fact read at one index.
-/
import proofs.«169209_g49306224558476_cont_8to1_c_716_6_alg».proof.Defs
import proofs.«169209_g49306224558476_cont_8to1_c_716_6_alg».proof.Proof.LibFiniteEntries
import Idealize.ShloMosaic.Lib.ValueIdx

noncomputable section

namespace Cert.Gcn.Finite

open Idealize.ShloMosaic Idealize.SL.Sem Idealize.ShloMosaic.ValueIdx

/-- The rank-0 shape has one index: two of them are functions on the empty set of axes. -/
instance : Subsingleton Cert.Pre_finite_inputs.S_.Idx := ⟨fun a b => funext fun d => d.elim0⟩

/-- Under the precondition, on every device, every entry of `X`, of `A` and of `W1` is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  -- the predicate's one result word, with its chain of operations in view
  have h0 := congrFun (h c) ValueIdx.ix0
  dsimp only [Cert.Pre_finite_inputs.fn, Cert.Pre_finite_inputs.fn_part1, Cert.Pre_finite_inputs.fn_part2] at h0
  -- the conjunction is nested to the left: peel the five later conjuncts, keep the first three
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  clear h0 h33 h28 h23 h18 h13 h8
  exact ⟨fun i => FiniteEntries.real_of_all_abs_lt_inf (s := Cert.Pre_finite_inputs.S10000x128) _ _ _ _ _ _ ix0 h3 i,
    fun i => FiniteEntries.real_of_all_abs_lt_inf (s := Cert.Pre_finite_inputs.S10000x10000) _ _ _ _ _ _ ix0 h7 i,
    fun i => FiniteEntries.real_of_all_abs_lt_inf (s := Cert.Pre_finite_inputs.S128x128) _ _ _ _ _ _ ix0 h12 i⟩

end Cert.Gcn.Finite

end
-- ==== Proof.Bridge.lean ====
/-
  The reference's result is the kernel's.

  At `(r, q)` the reference's result is the network with the first pre-activation associated `A · (X · W1)`, the
  kernel's the same network with it associated `(A · X) · W1`; everything after that pre-activation is one function
  of it on both sides. The two associations agree when the adjacency matrix, the features and the first weights have
  real entries, which is what finiteness of the inputs gives.
-/
import proofs.«169209_g49306224558476_cont_8to1_c_716_6_alg».proof.Proof.KernelValue
import proofs.«169209_g49306224558476_cont_8to1_c_716_6_alg».proof.Proof.RefRead
import proofs.«169209_g49306224558476_cont_8to1_c_716_6_alg».proof.Proof.Spec
import proofs.«169209_g49306224558476_cont_8to1_c_716_6_alg».proof.Proof.Gen.ReferenceIdeal

noncomputable section

namespace Cert.Gcn.Bridge

open Idealize.ShloMosaic Idealize.ShloMosaic.ValueIdx

/-- With real `X`, `A`, `W1` the two programs' results are one array. -/
theorem refOut_eq_kernelOut (X : FVec Ideal Cert.KernelIdeal.S10000x128 .f32) (A : FVec Ideal Cert.KernelIdeal.S10000x10000 .f32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (Wo : FVec Ideal Cert.KernelIdeal.S128x64 .f32) (bo : FVec Ideal Cert.KernelIdeal.S64 .f32)
    (hX : ∀ i, ∃ x : ℝ, X i = (x : EReal)) (hA : ∀ i, ∃ x : ℝ, A i = (x : EReal)) (hW : ∀ i, ∃ x : ℝ, W1 i = (x : EReal)) :
    Cert.ReferenceIdeal.RefValue.refOut X A W1 b1 W2 b2 Wo bo
      = Cert.KernelIdeal.HandValue.kernelOut X A W1 b1 W2 b2 Wo bo := by
  funext i
  obtain ⟨r, q, rfl⟩ : ∃ (r : Fin 10000) (q : Fin 64), i = ix2 r q := ⟨i 0, i 1, eq_ix2 i⟩
  refine (Cert.ReferenceIdeal.RefValue.refOut_apply X A W1 b1 W2 b2 Wo bo r q).trans ?_
  refine Eq.trans ?_ (Cert.KernelIdeal.HandValue.kernelOut_apply X A W1 b1 W2 b2 Wo bo r q).symm
  rw [Cert.Gcn.preK_eq_preR (fun a c => A (ix2 a c)) (fun a c => X (ix2 a c)) (fun a c => W1 (ix2 a c)) (fun k => b1 (ix1 k))
    (fun a c => hA (ix2 a c)) (fun a c => hX (ix2 a c)) (fun a c => hW (ix2 a c))]

end Cert.Gcn.Bridge

end
-- ==== Proof.lean ====
/-
  A two-layer graph network, `logits = elu (A · (elu (A · X · W1 + b1) · W2) + b2) · Wout + bout`, computed by two
  pipelined kernels over blocks of 400 rows of the adjacency matrix, against the same network written with plain
  array operations.

  On the extended reals a change of float format is the identity and a matrix product is the sum over the contracted
  coordinate, so the kernel program's result is the network with the first pre-activation associated `(A · X) · W1` and
  the reference's is the network with it associated `A · (X · W1)`; everything after that pre-activation — the two
  `elu`s (in the kernel `select (x > 0) x (exp x - 1)`, in the reference `select (x > 0) x (1 * expm1 (select (x > 0) 0
  x))`), the second aggregation, the output layer — is one function of it on both sides, at every extended real. The
  two associations agree because the precondition makes every entry of `A`, `X` and `W1` a real number: products and
  sums of reals are computed in the reals, where the product of matrices is associative. That is the only use of the
  precondition.

  The kernel program's run names its result by folding the buffer contents through the host stretch and the two
  regions; each region's output array is one whole-array function because row `r` of a block's result depends on row
  `r` of the adjacency block only and the 25 blocks tile the 10000 rows. The reference's run is its 44 host operations
  in order. The ideal pass rewrote nothing, so `preserves` has nothing to state.
-/
import proofs.«169209_g49306224558476_cont_8to1_c_716_6_alg».proof.Defs
import proofs.«169209_g49306224558476_cont_8to1_c_716_6_alg».proof.Proof.Gen.Kernel
import proofs.«169209_g49306224558476_cont_8to1_c_716_6_alg».proof.Proof.Gen.Kernel.Frame
import proofs.«169209_g49306224558476_cont_8to1_c_716_6_alg».proof.Proof.Gen.KernelIdeal
import proofs.«169209_g49306224558476_cont_8to1_c_716_6_alg».proof.Proof.Gen.KernelIdeal.Frame
import proofs.«169209_g49306224558476_cont_8to1_c_716_6_alg».proof.Proof.Gen.ReferenceIdeal
import proofs.«169209_g49306224558476_cont_8to1_c_716_6_alg».proof.Proof.Gen.Pre_finite_inputs
import proofs.«169209_g49306224558476_cont_8to1_c_716_6_alg».proof.Proof.KernelValue
import proofs.«169209_g49306224558476_cont_8to1_c_716_6_alg».proof.Proof.RefRun
import proofs.«169209_g49306224558476_cont_8to1_c_716_6_alg».proof.Proof.Finite
import proofs.«169209_g49306224558476_cont_8to1_c_716_6_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end with the same result array: the kernel's run names it, the reference's run names its own, and
    under finite inputs the two are one array. -/
theorem algebraic : Cert.algebraic_KernelIdeal_ReferenceIdeal := by
  intro m ρ m' ρ' hpre hagree
  refine ⟨fun c => Cert.KernelIdeal.HandValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.HandValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  obtain ⟨hX, hA, hW⟩ := Cert.Gcn.Finite.real_of_pre m hpre c
  rw [h0, h1, h2, h3, h4, h5, h6, h7]
  exact Cert.Gcn.Bridge.refOut_eq_kernelOut _ _ _ _ _ _ _ _ hX hA hW

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
